-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x512x512 : Shape := ⟨3, ![128, 512, 512]⟩
abbrev S512x512 : Shape := ⟨2, ![512, 512]⟩
abbrev S512 : Shape := ⟨1, ![512]⟩
abbrev S_ : Shape := ⟨0, ![]⟩

class Facts : Prop where
  bcast_S_S128x512x512 : S_.BroadcastsInDim S128x512x512 (![] : Fin 0 → Fin S128x512x512.rank)
  reducesTo_S128x512x512_S_d0_1_2 : S128x512x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_arg5 : FVec F S512x512 .f32) (main_arg6 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S128x512x512 .f32) (main_arg1 : FVec F S512x512 .f32) (main_arg2 : FVec F S512 .f32) (main_arg3 : FVec F S512x512 .f32) (main_arg4 : FVec F S512 .f32) (main_arg5 : FVec F S512x512 .f32) (main_arg6 : FVec F S512 .f32) : IVec S_ 1 :=
  let main_v0 : FVec F S128x512x512 .f32 := Host.absf main_arg0
  let main_cst : FVec F S_ .f32 := constant S_ .f32 0x7F800000#32
  let main_v1 : FVec F S128x512x512 .f32 := broadcastInDim S128x512x512 ![] bcast_S_S128x512x512 main_cst
  let main_v2 : IVec S128x512x512 1 := cmpf .olt main_v0 main_v1
  let main_c : IVec S_ 1 := constantI S_ 1 1#1
  let main_v3 : IVec S_ 1 := (fun x v => Host.reduce IntOp.andi x v reducesTo_S128x512x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_v13 main_v16
-- ==== Kernel.lean ====
abbrev S128x512x512 : Shape := ⟨3, ![128, 512, 512]⟩
abbrev S512x512 : Shape := ⟨2, ![512, 512]⟩
abbrev S512 : Shape := ⟨1, ![512]⟩
abbrev S1x512x512 : Shape := ⟨3, ![1, 512, 512]⟩
abbrev S1x512 : Shape := ⟨2, ![1, 512]⟩
abbrev S512x1 : Shape := ⟨2, ![512, 1]⟩

abbrev nBuf : Space → Nat
  | .hbm => 14
  | .vmem => 10
  | .smem => 0
  | _ => 0

abbrev bufTy : (tb : Table) → Fin (tcTables nBuf tb) → BufTy
  | .hbm, ⟨0, _⟩ => ⟨S128x512x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512x512, .bf16⟩
  | .hbm, ⟨9, _⟩ => ⟨S512x512, .f32⟩
  | .hbm, ⟨10, _⟩ => ⟨S512x512, .bf16⟩
  | .hbm, ⟨11, _⟩ => ⟨S512x512, .f32⟩
  | .hbm, ⟨12, _⟩ => ⟨S512x512, .bf16⟩
  | .hbm, ⟨13, _⟩ => ⟨S128x512x512, .f32⟩
  | .local _ .vmem, ⟨0, _⟩ => ⟨S1x512x512, .f32⟩
  | .local _ .vmem, ⟨1, _⟩ => ⟨S1x512x512, .f32⟩
  | .local _ .vmem, ⟨2, _⟩ => ⟨S512x512, .bf16⟩
  | .local _ .vmem, ⟨3, _⟩ => ⟨S512, .f32⟩
  | .local _ .vmem, ⟨4, _⟩ => ⟨S512x512, .bf16⟩
  | .local _ .vmem, ⟨5, _⟩ => ⟨S512, .f32⟩
  | .local _ .vmem, ⟨6, _⟩ => ⟨S512x512, .bf16⟩
  | .local _ .vmem, ⟨7, _⟩ => ⟨S512, .f32⟩
  | .local _ .vmem, ⟨8, _⟩ => ⟨S1x512x512, .f32⟩
  | .local _ .vmem, ⟨9, _⟩ => ⟨S1x512x512, .f32⟩
  | _, _ => ⟨S128x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S512x512_S512x512_1_0 : S512x512.Transposes [1, 0] S512x512
  bitsLt_bf16_f32 : FTy.bits .bf16 < FTy.bits .f32
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  shapeCasts_S512_S1x512 : S512.ShapeCasts S1x512
  broadcasts_S1x512_S512x512 : S1x512.Broadcasts S512x512
  transposes_S512x512_p1_0_S512x512 : S512x512.Transposes [1, 0] S512x512
  reduces_S512x512_S512 : S512x512.Reduces [1] S512
  shapeCasts_S512_S512x1 : S512.ShapeCasts S512x1
  broadcasts_S512x1_S512x512 : S512x1.Broadcasts S512x512
  shapeCasts_S512x512_S1x512x512 : S512x512.ShapeCasts S1x512x512
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S128x512x512.size a
  hwx0_0 : ∀ i : grid0.Coords, EltTy.bits .f32 = 32 ∨ (Rect.block (s := S128x512x512) S1x512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .bf16 = 32 ∨ (Rect.block (s := S512x512) S512x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x512.size a ≤ S128x512x512.size a
  hwx0_7 : ∀ i : grid0.Coords, EltTy.bits .f32 = 32 ∨ (Rect.block (s := S128x512x512) S1x512x512.size (cc0_transform_7 i) (hinb0_7 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x512x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S128x512x512 : Shape := ⟨3, ![128, 512, 512]⟩
abbrev S512x512 : Shape := ⟨2, ![512, 512]⟩
abbrev S512 : Shape := ⟨1, ![512]⟩
abbrev S1x1x512 : Shape := ⟨3, ![1, 1, 512]⟩
abbrev S_ : Shape := ⟨0, ![]⟩
abbrev S128x512 : Shape := ⟨2, ![128, 512]⟩
abbrev S128x512x1 : Shape := ⟨3, ![128, 512, 1]⟩

abbrev nBuf : Space → Nat
  | .hbm => 39
  | .vmem => 0
  | .smem => 0
  | _ => 0

abbrev bufTy : (tb : Table) → Fin (tcTables nBuf tb) → BufTy
  | .hbm, ⟨0, _⟩ => ⟨S128x512x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S128x512x512, .f32⟩
  | .hbm, ⟨8, _⟩ => ⟨S1x1x512, .f32⟩
  | .hbm, ⟨9, _⟩ => ⟨S128x512x512, .f32⟩
  | .hbm, ⟨10, _⟩ => ⟨S128x512x512, .f32⟩
  | .hbm, ⟨11, _⟩ => ⟨S128x512x512, .f32⟩
  | .hbm, ⟨12, _⟩ => ⟨S1x1x512, .f32⟩
  | .hbm, ⟨13, _⟩ => ⟨S128x512x512, .f32⟩
  | .hbm, ⟨14, _⟩ => ⟨S128x512x512, .f32⟩
  | .hbm, ⟨15, _⟩ => ⟨S128x512x512, .f32⟩
  | .hbm, ⟨16, _⟩ => ⟨S1x1x512, .f32⟩
  | .hbm, ⟨17, _⟩ => ⟨S128x512x512, .f32⟩
  | .hbm, ⟨18, _⟩ => ⟨S128x512x512, .f32⟩
  | .hbm, ⟨19, _⟩ => ⟨S128x512x512, .f32⟩
  | .hbm, ⟨20, _⟩ => ⟨S128x512x512, .f32⟩
  | .hbm, ⟨21, _⟩ => ⟨S128x512x512, .f32⟩
  | .hbm, ⟨22, _⟩ => ⟨S_, .f32⟩
  | .hbm, ⟨23, _⟩ => ⟨S128x512, .f32⟩
  | .hbm, ⟨24, _⟩ => ⟨S_, .f32⟩
  | .hbm, ⟨25, _⟩ => ⟨S128x512, .f32⟩
  | .hbm, ⟨26, _⟩ => ⟨S128x512, .f32⟩
  | .hbm, ⟨27, _⟩ => ⟨S128x512x1, .f32⟩
  | .hbm, ⟨28, _⟩ => ⟨S128x512x512, .f32⟩
  | .hbm, ⟨29, _⟩ => ⟨S128x512x512, .f32⟩
  | .hbm, ⟨30, _⟩ => ⟨S128x512x512, .f32⟩
  | .hbm, ⟨31, _⟩ => ⟨S_, .f32⟩
  | .hbm, ⟨32, _⟩ => ⟨S128x512, .f32⟩
  | .hbm, ⟨33, _⟩ => ⟨S128x512x1, .f32⟩
  | .hbm, ⟨34, _⟩ => ⟨S128x512x512, .f32⟩
  | .hbm, ⟨35, _⟩ => ⟨S128x512x512, .f32⟩
  | .hbm, ⟨36, _⟩ => ⟨S128x512x512, .f32⟩
  | .hbm, ⟨37, _⟩ => ⟨S128x512x512, .f32⟩
  | .hbm, ⟨38, _⟩ => ⟨S128x512x512, .f32⟩
  | _, _ => ⟨S128x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S128x512x512_0_1_2 : S1x1x512.BroadcastsInDim S128x512x512 (![0, 1, 2] : Fin 3 → Fin S128x512x512.rank)
  transposes_S128x512x512_S128x512x512_0_2_1 : S128x512x512.Transposes [0, 2, 1] S128x512x512
  reducesTo_S128x512x512_S128x512_d2 : S128x512x512.ReducesTo [2] S128x512
  h_S_ : 0 < S_.numel
  bcast_S_S128x512 : S_.BroadcastsInDim S128x512 (![] : Fin 0 → Fin S128x512.rank)
  bcast_S128x512_S128x512x1_0_1 : S128x512.BroadcastsInDim S128x512x1 (![0, 1] : Fin 2 → Fin S128x512x1.rank)
  bcast_S128x512x1_S128x512x512_0_1_2 : S128x512x1.BroadcastsInDim S128x512x512 (![0, 1, 2] : Fin 3 → Fin S128x512x512.rank)
  dot_S128x512x512_S512x512_S128x512x512_2_1_01_0_n_n_wf : DotDims.WF S128x512x512 S512x512 S128x512x512 [2] [1] [0, 1] [0] [] []
  dot_S128x512x512_S128x512x512_S128x512x512_2_1_1_2_0_0_wf : DotDims.WF S128x512x512 S128x512x512 S128x512x512 [2] [1] [1] [2] [0] [0]

variable [Facts₀]

def dot_S128x512x512_S512x512_S128x512x512_2_1_01_0_n_n : DotDims S128x512x512 S512x512 S128x512x512 where
  lhsContracting := [2]
  rhsContracting := [1]
  lhsNonContracting := [0, 1]
  rhsNonContracting := [0]
  lhsBatch := []
  rhsBatch := []
  wf := dot_S128x512x512_S512x512_S128x512x512_2_1_01_0_n_n_wf
def dot_S128x512x512_S128x512x512_S128x512x512_2_1_1_2_0_0 : DotDims S128x512x512 S128x512x512 S128x512x512 where
  lhsContracting := [2]
  rhsContracting := [1]
  lhsNonContracting := [1]
  rhsNonContracting := [2]
  lhsBatch := [0]
  rhsBatch := [0]
  wf := dot_S128x512x512_S128x512x512_S128x512x512_2_1_1_2_0_0_wf

class Facts : Prop extends Facts₀ where

variable [Facts]
-- ==== Proof.AttnSpec.lean ====
/-
  Unscaled single-head attention of one batch entry, written once as a function of three 512 x 512 tables
  q, k, v, each indexed (position, feature).

  The energy pairs FEATURES, not positions: energy (i, j) = sum over positions p of q (p, i) * k (j, p) — the product of
  q transposed with k transposed, which type-checks only because there are as many positions as features. Each row i of
  the energy is turned into weights by a softmax: subtract the row's maximum, exponentiate, divide by the row's sum.
  The context is context (i, j) = sum over p of weight (i, p) * v (j, p), and the result at (position s, feature d) is
  context (d, s).

  The tables themselves are linear layers of the input x: row s of the batch entry against row e of a weight matrix,
  plus bias e. Two spellings of that layer are given, one for a block [1, 512, 512] of x against a weight matrix stored
  already transposed, one for the whole array [128, 512, 512] against the weight matrix as given; they are the same
  table once the block is the batch entry and the stored matrix is the transpose.

  Nothing here is evaluated: the softmax's starting value for the running maximum is kept as the f32 word of minus
  infinity, and the same word appears on both sides of every comparison.
-/
import Idealize.ShloMosaic.PureOps.Ideal
import Idealize.ShloMosaic.Lib.ValueIdx

noncomputable section

open scoped BigOperators

namespace Cert.Attn

open Idealize.ShloMosaic Idealize.ShloMosaic.ValueIdx

/-- A 512 x 512 table of extended reals, by coordinates. -/
abbrev Tab : Type := Fin 512 → Fin 512 → EReal

/-- The value the running maximum of a row starts from. -/
abbrev floorVal : EReal := Ideal.ofBits .f32 0xFF800000#32

/-- energy (i, j): feature i of the queries against feature j of the keys, summed over positions. -/
def energy (q k : Tab) : Tab := fun i j => ∑ p : Fin 512, q p i * k j p

/-- The maximum of row i, folded from the starting value and compared with it once more. -/
def rowMax (e : Tab) (i : Fin 512) : EReal :=
  max floorVal ((Finset.univ : Finset (Fin 512)).fold max floorVal (fun j => e i j))

/-- The exponential of an entry less its row's maximum. -/
def shifted (e : Tab) : Tab := fun i j => Ideal.exp (e i j - rowMax e i)

/-- The sum of row i of the shifted exponentials. -/
def rowSum (e : Tab) (i : Fin 512) : EReal := ∑ l : Fin 512, shifted e i l

/-- The softmax weight: a shifted exponential over its row's sum. -/
def weight (e : Tab) : Tab := fun i j => Ideal.div (shifted e i j) (rowSum e i)

/-- context (i, j): the weights of row i against position j of the values, summed over features. -/
def context (q k v : Tab) : Tab := fun i j => ∑ p : Fin 512, weight (energy q k) i p * v j p

/-- The attention result at (position s, feature d). -/
def attend (q k v : Tab) : Tab := fun s d => context q k v d s

/-- A linear layer on a block of x with one leading unit axis, against a matrix stored (input feature, output feature). -/
def linBlock (x0 : (⟨3, ![1, 512, 512]⟩ : Shape).Idx → EReal) (w : (⟨2, ![512, 512]⟩ : Shape).Idx → EReal)
    (c : (⟨1, ![512]⟩ : Shape).Idx → EReal) : Tab :=
  fun s e => (∑ d : Fin 512, x0 (ix3 (0 : Fin 1) s d) * w (ix2 d e)) + c (ix1 e)

/-- The same layer on batch entry b of the whole array, against the matrix as given, (output feature, input feature). -/
def linArr (x : (⟨3, ![128, 512, 512]⟩ : Shape).Idx → EReal) (W : (⟨2, ![512, 512]⟩ : Shape).Idx → EReal)
    (c : (⟨1, ![512]⟩ : Shape).Idx → EReal) (b : Fin 128) : Tab :=
  fun s e => (∑ d : Fin 512, x (ix3 b s d) * W (ix2 e d)) + c (ix1 e)

/-- The whole result array as one function of the seven argument arrays, index by index. -/
def G (x : (⟨3, ![128, 512, 512]⟩ : Shape).Idx → EReal)
    (Wq : (⟨2, ![512, 512]⟩ : Shape).Idx → EReal) (bq : (⟨1, ![512]⟩ : Shape).Idx → EReal)
    (Wk : (⟨2, ![512, 512]⟩ : Shape).Idx → EReal) (bk : (⟨1, ![512]⟩ : Shape).Idx → EReal)
    (Wv : (⟨2, ![512, 512]⟩ : Shape).Idx → EReal) (bv : (⟨1, ![512]⟩ : Shape).Idx → EReal) :
    (⟨3, ![128, 512, 512]⟩ : Shape).Idx → EReal :=
  fun i => attend (linArr x Wq bq (i 0)) (linArr x Wk bk (i 0)) (linArr x Wv bv (i 0)) (i 1) (i 2)

/-- The block layer IS the whole-array layer when the block is batch entry b and the stored matrix is the transpose. -/
theorem linBlock_eq_linArr (x0 : (⟨3, ![1, 512, 512]⟩ : Shape).Idx → EReal) (w : (⟨2, ![512, 512]⟩ : Shape).Idx → EReal)
    (x : (⟨3, ![128, 512, 512]⟩ : Shape).Idx → EReal) (W : (⟨2, ![512, 512]⟩ : Shape).Idx → EReal)
    (c : (⟨1, ![512]⟩ : Shape).Idx → EReal) (b : Fin 128)
    (hx : ∀ s d : Fin 512, x0 (ix3 (0 : Fin 1) s d) = x (ix3 b s d))
    (hw : ∀ d e : Fin 512, w (ix2 d e) = W (ix2 e d)) :
    linBlock x0 w c = linArr x W c b := by
  funext s e
  unfold linBlock linArr
  simp only [hx, hw]

end Cert.Attn

end
-- ==== Proof.LibDotIx2.lean ====
/-
  A plain matrix product read at a row and a column, for operands of any float formats. For dimension numbers that
  contract the left operand's second axis with the right operand's first and batch nothing — stated by the four
  coordinate facts of the operand indices — the contraction at (r, c) is the finite sum over k of
  left (r, k) * right (k, c). Two readings rest on it: a matrix-unit product into the zero accumulator, and the
  host's dot_general; at the extended reals both are that sum, whatever formats the operands were rounded to on the way.
-/
import Idealize.ShloMosaic.PureOps.Ideal.Laws
import Idealize.ShloMosaic.Lib.ValueIdx

noncomputable section

open scoped BigOperators

namespace Idealize.ShloMosaic.ValueIdx

open Idealize.ShloMosaic

/-- The facts that say a dot's dimension numbers are those of a plain M x K by K x N product. -/
structure PlainDot {M K N : ℕ} (d : DotDims (⟨2, ![M, K]⟩ : Shape) (⟨2, ![K, N]⟩ : Shape) (⟨2, ![M, N]⟩ : Shape)) : Prop where
  rank : d.contr.rank = 1
  size : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

/-- The contraction of a plain product at (r, c), re-indexed by the inner position k. -/
theorem contraction_ix2 {M K N : ℕ} {d : DotDims (⟨2, ![M, K]⟩ : Shape) (⟨2, ![K, N]⟩ : Shape) (⟨2, ![M, N]⟩ : Shape)}
    (hd : PlainDot d) (lhs : (⟨2, ![M, K]⟩ : Shape).Idx → EReal) (rhs : (⟨2, ![K, N]⟩ : Shape).Idx → EReal) (r : Fin M) (c : Fin N) :
    (∑ q : d.contr.Idx, lhs (d.lhsIdx (ix2 r c) q) * rhs (d.rhsIdx (ix2 r c) q)) = ∑ k : Fin K, lhs (ix2 r k) * rhs (ix2 k c) := by
  rw [← Equiv.sum_comp (contrEquiv1 d K hd.rank hd.size).symm]
  refine Finset.sum_congr rfl fun k _ => ?_
  have hk := contrEquiv1_symm_val d K hd.rank hd.size k
  have el : d.lhsIdx (ix2 r c) ((contrEquiv1 d K hd.rank hd.size).symm k) = ix2 r k := funext fun a => Fin.ext (by
    match a with
    | ⟨0, _⟩ => exact hd.l0 _ _
    | ⟨1, _⟩ => exact (hd.l1 _ _).trans hk)
  have er : d.rhsIdx (ix2 r c) ((contrEquiv1 d K hd.rank hd.size).symm k) = ix2 k c := funext fun a => Fin.ext (by
    match a with
    | ⟨0, _⟩ => exact (hd.r0 _ _).trans hk
    | ⟨1, _⟩ => exact hd.r1 _ _)
  rw [el, er]

/-- A matrix-unit product of an M x K by a K x N array into zeros, at (r, c): the sum over the K inner positions. -/
theorem matmul_zero_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision)
    (lhs : FVec Ideal (⟨2, ![M, K]⟩ : Shape) φ₁) (rhs : FVec Ideal (⟨2, ![K, N]⟩ : Shape) φ₂) (r : Fin M) (c : Fin N) :
    FloatOps.matmul d prec lhs rhs (constant (⟨2, ![M, N]⟩ : Shape) .f32 0x00000000#32) (ix2 r c)
      = ∑ k : Fin K, (lhs (ix2 r k) : EReal) * (rhs (ix2 k c) : EReal) := by
  rw [Ideal.matmul_constant_zero_apply]
  exact contraction_ix2 hd lhs rhs r c

/-- The host's dot_general of an M x K by a K x N array, at (r, c): the same sum. -/
theorem dotGeneral_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision) (sched : HostSchedule)
    (lhs : FVec Ideal (⟨2, ![M, K]⟩ : Shape) φ₁) (rhs : FVec Ideal (⟨2, ![K, N]⟩ : Shape) φ₂) (r : Fin M) (c : Fin N) :
    FloatOps.dotGeneral d prec sched lhs rhs (ix2 r c)
      = ∑ k : Fin K, (lhs (ix2 r k) : EReal) * (rhs (ix2 k c) : EReal) := by
  rw [Ideal.dotGeneral_apply]
  exact contraction_ix2 hd lhs rhs r c

end Idealize.ShloMosaic.ValueIdx

end
-- ==== Proof.LibRowReduce.lean ====
/-
  Reductions of an n x k array along its rows, read at a row given by its coordinate. The reduced index (r) with the
  inner coordinate j put back is the array index (r, j); so a lane sum at r is the finite sum over j of the entries
  (r, j), a lane maximum is the fold of max over them from the accumulator's value, and the host's sum and maximum
  over the same axis are the same sum (after the initial value) and the same fold (from the initial value).
-/
import Idealize.ShloMosaic.PureOps.Ideal.Laws
import Idealize.ShloMosaic.PureOps.Reduce
import Idealize.ShloMosaic.Lib.ValueIdx

noncomputable section

open scoped BigOperators

namespace Idealize.ShloMosaic.ValueIdx

open Idealize.ShloMosaic

/-- Row r's reduced index with the inner coordinate j inserted is (r, j). -/
theorem lift_row {n k : ℕ} (h : (⟨2, ![n, k]⟩ : Shape).Reduces [1] (⟨1, ![n]⟩ : Shape)) (r : Fin n)
    (j : Fin ((⟨2, ![n, k]⟩ : Shape).size 1)) : h.lift (ix1 r) j = ix2 r (⟨j.val, j.isLt⟩ : Fin k) := by
  funext c; apply Fin.ext
  fin_cases c <;> rfl

/-- A lane sum over the second axis, at row r: the sum of the row's entries. -/
theorem multiReduction_add_row {n k : ℕ} {φ : FTy} (src : FVec Ideal (⟨2, ![n, k]⟩ : Shape) φ) (acc : BitVec φ.bits)
    (h : (⟨2, ![n, k]⟩ : Shape).Reduces [1] (⟨1, ![n]⟩ : Shape)) (hφ : FKind.Formats φ) (hacc : acc = FKind.add.neutral φ hφ) (r : Fin n) :
    multiReduction .add [1] (⟨1, ![n]⟩ : Shape) src acc h hφ hacc (ix1 r) = ∑ j : Fin k, (src (ix2 r j) : EReal) :=
  (Ideal.multiReduction_add_single src acc h hφ hacc (ix1 r)).trans
    (Finset.sum_congr rfl fun j _ => congrArg src (lift_row h r j))

/-- A lane maximum over the second axis, at row r: the fold of max over the row's entries from the accumulator's value. -/
theorem multiReduction_max_row {n k : ℕ} {φ : FTy} (src : FVec Ideal (⟨2, ![n, k]⟩ : Shape) φ) (acc : BitVec φ.bits)
    (h : (⟨2, ![n, k]⟩ : Shape).Reduces [1] (⟨1, ![n]⟩ : Shape)) (hφ : FKind.Formats φ) (hacc : acc = FKind.maximumf.neutral φ hφ) (r : Fin n) :
    multiReduction .maximumf [1] (⟨1, ![n]⟩ : Shape) src acc h hφ hacc (ix1 r)
      = (Finset.univ : Finset (Fin k)).fold max (Ideal.ofBits φ acc) (fun j => (src (ix2 r j) : EReal)) :=
  (Ideal.multiReduction_maximumf_single src acc h hφ hacc (ix1 r)).trans
    (congrArg (fun f => Finset.fold max (Ideal.ofBits φ acc) f (Finset.univ : Finset (Fin k)))
      (funext fun j => congrArg src (lift_row h r j)))

/-- The host's sum over the second axis, at row r: the initial value plus the sum of the row's entries. -/
theorem hostReduceAdd_row {n k : ℕ} (h' : (⟨2, ![n, k]⟩ : Shape).ReducesTo [1] (⟨1, ![n]⟩ : Shape))
    (h : (⟨2, ![n, k]⟩ : Shape).Reduces [1] (⟨1, ![n]⟩ : Shape)) (x : (⟨2, ![n, k]⟩ : Shape).Idx → EReal) (init : EReal) (r : Fin n) :
    Ideal.hostReduceAdd h' x init (ix1 r) = init + ∑ j : Fin k, x (ix2 r j) :=
  (Ideal.hostReduceAdd_single h' h x init (ix1 r)).trans
    (congrArg (init + ·) (Finset.sum_congr rfl fun j _ => congrArg x (lift_row h r j)))

/-- The host's maximum over the second axis, at row r: the fold of max over the row's entries from the initial value. -/
theorem hostReduce_max_row {n k : ℕ} {φ : FTy} {u : Shape} (h' : (⟨2, ![n, k]⟩ : Shape).ReducesTo [1] (⟨1, ![n]⟩ : Shape))
    (h : (⟨2, ![n, k]⟩ : Shape).Reduces [1] (⟨1, ![n]⟩ : Shape)) (x : FVec Ideal (⟨2, ![n, k]⟩ : Shape) φ) (init : u.Idx → Ideal φ)
    (hu : 0 < u.numel) (r : Fin n) :
    Host.reduce FloatOps.maximumf x init h' hu (ix1 r)
      = (Finset.univ : Finset (Fin k)).fold max (init (Shape.Idx.first hu) : EReal) (fun j => (x (ix2 r j) : EReal)) :=
  (Host.reduce_eq_fold_single FloatOps.maximumf x init h' h hu (ix1 r)).trans
    (congrArg (fun f => Finset.fold max (init (Shape.Idx.first hu) : EReal) f (Finset.univ : Finset (Fin k)))
      (funext fun j => congrArg x (lift_row h r j)))

/-- Folding max from a value b over any entries gives something at least b: taking the maximum with b again changes nothing. -/
theorem max_fold_max_self {ι : Type} (s : Finset ι) (b : EReal) (f : ι → EReal) : max b (s.fold max b f) = s.fold max b f :=
  max_eq_right (Finset.le_fold_max b |>.mpr (Or.inl le_rfl))

end Idealize.ShloMosaic.ValueIdx

end
-- ==== Proof.LibKeepdims.lean ====
/-
  Two layout operations of a row reduction kept as a column (`keepdims=True`), read at an index given by coordinates:
  a vector of length `a` recast as an `a × 1` column, and an `a × 1` column broadcast across `b` columns.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KernelBody.lean ====
/-
  What the kernel's body stores, read at an index.

  The body loads one block of x (a batch entry, with a leading unit axis), three weight matrices stored transposed and
  three bias vectors, and stores one block. Its arithmetic is five pure terms; each is read here at coordinates:

  * the block of x without its unit axis (a change of float format is the identity on extended reals);
  * a linear layer — a matrix-unit product into zeros, as the sum over the inner position, plus the bias row
    broadcast down the rows;
  * the energy — the product of two transposed tables, so entry (i, j) sums q (p, i) * k (j, p) over positions p;
  * the shifted exponentials and their row sums — the row maximum is a fold of max from the accumulator's value,
    compared once more with that value, kept as a column and broadcast across the row;
  * the stored block — the weights against the transposed values, transposed back and given its unit axis.

  Together: the stored block at (0, s, d) is the attention result of the three block layers at (s, d).
-/
import proofs.«133101_j49409303773947_1_alg».proof.Proof.Gen.KernelIdeal.Skeleton
import proofs.«133101_j49409303773947_1_alg».proof.Proof.AttnSpec
import proofs.«133101_j49409303773947_1_alg».proof.Proof.LibDotIx2
import proofs.«133101_j49409303773947_1_alg».proof.Proof.LibRowReduce
import proofs.«133101_j49409303773947_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.Attn

/-- The body's products contract the left operand's second axis with the right operand's first, and batch nothing. -/
theorem plainDot : PlainDot (M := 512) (K := 512) (N := 512) dot_S512x512_S512x512_S512x512_1_0_0_1_n_n where
  rank := rfl
  size := rfl
  l0 := fun j q => by
    unfold DotDims.lhsIdx
    rw [dif_neg (show ¬(0 : Fin S512x512.rank) ∈ dot_S512x512_S512x512_S512x512_1_0_0_1_n_n.lhsBatch by decide),
      dif_pos (show (0 : Fin S512x512.rank) ∈ dot_S512x512_S512x512_S512x512_1_0_0_1_n_n.lhsNonContracting by decide)]
    rfl
  l1 := fun j q => dot_S512x512_S512x512_S512x512_1_0_0_1_n_n.lhsIdx_val_of_single rfl j q
  r0 := fun j q => dot_S512x512_S512x512_S512x512_1_0_0_1_n_n.rhsIdx_val_of_single rfl j q
  r1 := fun j q => by
    unfold DotDims.rhsIdx
    rw [dif_neg (show ¬(1 : Fin S512x512.rank) ∈ dot_S512x512_S512x512_S512x512_1_0_0_1_n_n.rhsBatch by decide),
      dif_pos (show (1 : Fin S512x512.rank) ∈ dot_S512x512_S512x512_S512x512_1_0_0_1_n_n.rhsNonContracting by decide)]
    rfl

/-- The block of x with its unit axis dropped and its format changed: entry (s, d) is the block's (0, s, d). -/
theorem pay2_at (v0 : FVec Ideal S1x512x512 .f32) (s d : Fin 512) :
    k0_pay2 (F := Ideal) v0 (ix2 s d) = v0 (ix3 (0 : Fin 1) s d) := by
  unfold k0_pay2
  exact shapeCast_1ab_ab_apply v0 _ s d

/-- A linear layer of the body at (s, e): the product into zeros as a sum over input features, plus bias e. -/
theorem linear_at (v0 : FVec Ideal S1x512x512 .f32) (w : FVec Ideal S512x512 .bf16) (c : FVec Ideal S512 .f32) (s e : Fin 512) :
    addf (matmul dot_S512x512_S512x512_S512x512_1_0_0_1_n_n none (k0_pay2 (F := Ideal) v0)
        (shapeCast S512x512 w shapeCasts_S512x512_S512x512 : FVec Ideal S512x512 .bf16) (constant S512x512 .f32 0x00000000#32))
      (broadcastTo S512x512 (shapeCast S1x512 c shapeCasts_S512_S1x512 : FVec Ideal S1x512 .f32) broadcasts_S1x512_S512x512) (ix2 s e)
    = linBlock v0 w c s e := by
  rw [addf_apply, shapeCast_self, broadcastTo_1b_ab_apply, shapeCast_a_1a_apply]
  refine congrArg (· + c (ix1 e)) ?_
  refine (matmul_zero_ix2_any plainDot none _ _ s e).trans ?_
  exact Finset.sum_congr rfl fun d _ => congrArg (· * w (ix2 d e)) (pay2_at v0 s d)

/-- The transposed value table: entry (e, s) is the value layer at (s, e). -/
theorem pay3_at (v0 : FVec Ideal S1x512x512 .f32) (v7 : FVec Ideal S512x512 .bf16) (v11 : FVec Ideal S512 .f32) (e s : Fin 512) :
    k0_pay3 (F := Ideal) v0 v7 v11 (ix2 e s) = linBlock v0 v7 v11 s e := by
  unfold k0_pay3
  refine (transpose_ix2_apply _ _ e s).trans ?_
  exact linear_at v0 v7 v11 s e

/-- The energy at (i, j): both tables are transposed before the product, so the inner position p runs over the
    tables' first coordinate on the left and their second on the right — q (p, i) * k (j, p). -/
theorem energy_at (Qa Ka : FVec Ideal S512x512 .f32) (q k : Tab)
    (hq : ∀ s e : Fin 512, Qa (ix2 s e) = q s e) (hk : ∀ s e : Fin 512, Ka (ix2 s e) = k s e) (i j : Fin 512) :
    matmul dot_S512x512_S512x512_S512x512_1_0_0_1_n_n none
      (truncf .bf16 (transpose S512x512 [1, 0] Qa transposes_S512x512_p1_0_S512x512) bitsLt_bf16_f32 : FVec Ideal S512x512 .bf16)
      (truncf .bf16 (transpose S512x512 [1, 0] Ka transposes_S512x512_p1_0_S512x512) bitsLt_bf16_f32 : FVec Ideal S512x512 .bf16)
      (constant S512x512 .f32 0x00000000#32) (ix2 i j) = energy q k i j := by
  refine (matmul_zero_ix2_any plainDot none _ _ i j).trans ?_
  unfold energy
  refine Finset.sum_congr rfl fun p _ => ?_
  rw [truncf_apply, truncf_apply, transpose_ix2_apply, transpose_ix2_apply, hq, hk]

/-- The shifted exponential at (i, j): the row maximum is the fold of max over row i from the accumulator's value,
    compared once more with that value, recast as a column and broadcast across the row. -/
theorem shifted_at (E : FVec Ideal S512x512 .f32) (e : Tab) (he : ∀ i j : Fin 512, E (ix2 i j) = e i j) (i j : Fin 512) :
    exp (subf E (broadcastTo S512x512
        (shapeCast S512x1 (maximumf (broadcast S512 (Scalar.ofBits (F := Ideal) .f32 0xFF800000#32) : FVec Ideal S512 .f32)
          (multiReduction .maximumf [1] S512 E 0xFF800000#32 reduces_S512x512_S512 (.inl rfl) rfl)) shapeCasts_S512_S512x1 : FVec Ideal S512x1 .f32)
        broadcasts_S512x1_S512x512)) (ix2 i j)
    = shifted e i j := by
  have hfold : multiReduction .maximumf [1] S512 E 0xFF800000#32 reduces_S512x512_S512 (.inl rfl) rfl (ix1 i)
      = (Finset.univ : Finset (Fin 512)).fold max floorVal (fun l => e i l) :=
    (multiReduction_max_row E 0xFF800000#32 reduces_S512x512_S512 (.inl rfl) rfl i).trans
      (congrArg (fun f => Finset.fold max floorVal f (Finset.univ : Finset (Fin 512))) (funext fun l => he i l))
  show Ideal.exp (E (ix2 i j) - broadcastTo S512x512 _ broadcasts_S512x1_S512x512 (ix2 i j)) = _
  unfold shifted rowMax
  refine congrArg Ideal.exp (congrArg₂ (· - ·) (he i j) ?_)
  refine (broadcastTo_a1_ab_apply _ _ i j).trans ?_
  refine (shapeCast_a_a1_apply _ _ i 0).trans ?_
  show max floorVal (multiReduction .maximumf [1] S512 E 0xFF800000#32 reduces_S512x512_S512 (.inl rfl) rfl (ix1 i)) = _
  exact congrArg (max floorVal) hfold

/-- The row sum at (i, j), any j: the lane sum of row i, recast as a column and broadcast across the row. -/
theorem rowSum_at (Pa : FVec Ideal S512x512 .f32) (e : Tab) (hP : ∀ i j : Fin 512, Pa (ix2 i j) = shifted e i j) (i j : Fin 512) :
    broadcastTo S512x512
      (shapeCast S512x1 (multiReduction .add [1] S512 Pa 0x00000000#32 reduces_S512x512_S512 (.inl rfl) rfl) shapeCasts_S512_S512x1 : FVec Ideal S512x1 .f32)
      broadcasts_S512x1_S512x512 (ix2 i j) = rowSum e i := by
  refine (broadcastTo_a1_ab_apply _ _ i j).trans ?_
  refine (shapeCast_a_a1_apply _ _ i 0).trans ?_
  refine (multiReduction_add_row Pa 0x00000000#32 reduces_S512x512_S512 (.inl rfl) rfl i).trans ?_
  unfold rowSum
  exact Finset.sum_congr rfl fun l _ => hP i l

/-- The body's shifted exponentials are those of the energy of the query and key layers. -/
theorem pay4_at (v0 : FVec Ideal S1x512x512 .f32) (v3 v5 : FVec Ideal S512x512 .bf16) (v9 v10 : FVec Ideal S512 .f32) (i j : Fin 512) :
    k0_pay4 (F := Ideal) v0 v3 v5 v9 v10 (ix2 i j) = shifted (energy (linBlock v0 v3 v9) (linBlock v0 v5 v10)) i j := by
  unfold k0_pay4
  exact shifted_at _ _ (fun i j => energy_at _ _ _ _ (linear_at v0 v3 v9) (linear_at v0 v5 v10) i j) i j

/-- The body's broadcast row sums are those of the same energy. -/
theorem pay5_at (v0 : FVec Ideal S1x512x512 .f32) (v3 v5 : FVec Ideal S512x512 .bf16) (v9 v10 : FVec Ideal S512 .f32) (i j : Fin 512) :
    k0_pay5 (F := Ideal) v0 v3 v5 v9 v10 (ix2 i j) = rowSum (energy (linBlock v0 v3 v9) (linBlock v0 v5 v10)) i := by
  unfold k0_pay5
  exact rowSum_at _ _ (pay4_at v0 v3 v5 v9 v10) i j

/-- The stored block at (u, s, d) from the transposed values, the shifted exponentials and the broadcast row sums:
    the weights of row d against position s of the values — the product is transposed back before it is stored. -/
theorem pay1_at (v26 v36 v39 : FVec Ideal S512x512 .f32) (e v : Tab)
    (h26 : ∀ p j : Fin 512, v26 (ix2 p j) = v j p) (h36 : ∀ i j : Fin 512, v36 (ix2 i j) = shifted e i j)
    (h39 : ∀ i j : Fin 512, v39 (ix2 i j) = rowSum e i) (u : Fin 1) (s d : Fin 512) :
    k0_pay1 (F := Ideal) v26 v36 v39 (ix3 u s d) = ∑ p : Fin 512, weight e d p * v s p := by
  unfold k0_pay1
  refine (shapeCast_ab_1ab_apply _ _ u s d).trans ?_
  refine (transpose_ix2_apply _ _ s d).trans ?_
  refine (matmul_zero_ix2_any plainDot none _ _ d s).trans ?_
  refine Finset.sum_congr rfl fun p _ => ?_
  rw [truncf_apply, truncf_apply, divf_apply, h26, h36, h39]
  rfl

/-- What the body stores, at (u, s, d): the attention result of the three block layers at (s, d). -/
theorem stored_at (v0 : FVec Ideal S1x512x512 .f32) (v3 v5 v7 : FVec Ideal S512x512 .bf16) (v9 v10 v11 : FVec Ideal S512 .f32)
    (u : Fin 1) (s d : Fin 512) :
    k0_pay1 (F := Ideal) (k0_pay3 v0 v7 v11) (k0_pay4 v0 v3 v5 v9 v10) (k0_pay5 v0 v3 v5 v9 v10) (ix3 u s d)
      = attend (linBlock v0 v3 v9) (linBlock v0 v5 v10) (linBlock v0 v7 v11) s d :=
  pay1_at _ _ _ _ _ (pay3_at v0 v7 v11) (pay4_at v0 v3 v5 v9 v10) (pay5_at v0 v3 v5 v9 v10) u s d

end Cert.KernelIdeal.Body

end
-- ==== Proof.KernelValue.lean ====
/-
  From blocks to the array: after the kernel's run its result array is the whole-array function G of the arguments.

  The grid has one point per batch entry. At point t the block of x is batch entry t (block index t on the leading
  axis, 0 on the other two); each weight matrix and bias vector is one block, the whole array, at every point; and
  the output block is again batch entry t. The weight matrices the kernel reads were written by the host before the
  region: each is the transpose of an argument (its change of format is the identity), so a stored entry (d, e) is the
  argument's (e, d) — which turns the body's block layer into the whole-array layer.

  So what point t writes back is block t of G; the 128 blocks cover the array (index i lies in the block of point
  i 0); hence the array ends holding G.
-/
import proofs.«133101_j49409303773947_1_alg».proof.Proof.Gen.KernelIdeal.Value
import proofs.«133101_j49409303773947_1_alg».proof.Proof.KernelBody
import proofs.«133101_j49409303773947_1_alg».proof.Proof.AttnSpec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open scoped BigOperators

namespace Cert.KernelIdeal.AttnValue

open Cert.KernelIdeal Cert.KernelIdeal.Gen Idealize.ShloMosaic Idealize.ShloMosaic.TcCoe Idealize.SL.Sem
open Idealize.ShloMosaic.ValueIdx Cert.Attn
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ## The weight matrices as the region finds them -/

/-- The query weights the kernel reads: the argument transposed (the format change is the identity). -/
theorem hostWq (c : Dev nD) : @Eq (FVec Ideal S512x512 .bf16) (V m c main_v1)
      (truncf .bf16 (transpose S512x512 [1, 0] ((m ((c : Thread nD τ).loc main_arg1)) : FVec Ideal S512x512 .f32) transposes_S512x512_S512x512_1_0) bitsLt_bf16_f32) := by
  dsimp only [Gen.V, Gen.hostOps0]; after_results

/-- The key weights the kernel reads. -/
theorem hostWk (c : Dev nD) : @Eq (FVec Ideal S512x512 .bf16) (V m c main_v3)
      (truncf .bf16 (transpose S512x512 [1, 0] ((m ((c : Thread nD τ).loc main_arg3)) : FVec Ideal S512x512 .f32) transposes_S512x512_S512x512_1_0) bitsLt_bf16_f32) := by
  dsimp only [Gen.V, Gen.hostOps0]; after_results

/-- The value weights the kernel reads. -/
theorem hostWv (c : Dev nD) : @Eq (FVec Ideal S512x512 .bf16) (V m c main_v5)
      (truncf .bf16 (transpose S512x512 [1, 0] ((m ((c : Thread nD τ).loc main_arg5)) : FVec Ideal S512x512 .f32) transposes_S512x512_S512x512_1_0) bitsLt_bf16_f32) := by
  dsimp only [Gen.V, Gen.hostOps0]; after_results

/-! ## The index maps over the grid -/

/-- Decided over the 128 points: the x block and the output block are batch entry t; every other block index is 0. -/
theorem idx_facts : ∀ t : Fin cfg0.N,
    win0_7.index t (0 : Fin 3) = t.val ∧ win0_7.index t (1 : Fin 3) = 0 ∧ win0_7.index t (2 : Fin 3) = 0
    ∧ win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_3.index t (0 : Fin 2) = 0 ∧ win0_3.index t (1 : Fin 2) = 0
    ∧ win0_5.index t (0 : Fin 2) = 0 ∧ win0_5.index t (1 : Fin 2) = 0
    ∧ win0_2.index t (0 : Fin 1) = 0 ∧ win0_4.index t (0 : Fin 1) = 0 ∧ win0_6.index t (0 : Fin 1) = 0 :=
  (by decide +kernel : ∀ t : Fin grid0.N, _)

/-! ## The input blocks at a point, read at coordinates -/

/-- The block of x at point t is batch entry t. -/
theorem xblk_at (c : Dev nD) (t : Fin cfg0.N) (b : Fin 128) (hb : b.val = t.val) (s d : Fin 512) :
    iblk m c 0 t (ix3 (0 : Fin 1) s d) = (m ((c : Thread nD τ).loc main_arg0)) (ix3 b s d) := by
  obtain ⟨-, -, -, e0, e1, e2, -⟩ := idx_facts t
  show V m c main_arg0 (((cfg0.win 0).blk t).view.emb (ix3 (0 : Fin 1) s d)) = _
  rw [V_main_arg0]
  refine congrArg _ (funext fun a => Fin.ext ?_)
  match a with
  | ⟨0, _⟩ => show win0_0.index t (0 : Fin 3) * 1 + 1 * 0 = b.val; omega
  | ⟨1, _⟩ => show win0_0.index t (1 : Fin 3) * 512 + 1 * s.val = s.val; omega
  | ⟨2, _⟩ => show win0_0.index t (2 : Fin 3) * 512 + 1 * d.val = d.val; omega

/-- The stored query weights at (d, e): the argument's (e, d). -/
theorem wq_at (c : Dev nD) (t : Fin cfg0.N) (d e : Fin 512) :
    iblk m c 1 t (ix2 d e) = (m ((c : Thread nD τ).loc main_arg1)) (ix2 e d) := by
  obtain ⟨-, -, -, -, -, -, q0, q1, k0, k1, v0, v1, -⟩ := idx_facts t
  show V m c main_v1 (((cfg0.win 1).blk t).view.emb (ix2 d e)) = _
  have hemb : ((cfg0.win 1).blk t).view.emb (ix2 d e) = ix2 d e := funext fun a => Fin.ext (by
    match a with
    | ⟨0, _⟩ => show win0_1.index t (0 : Fin 2) * 512 + 1 * d.val = d.val; omega
    | ⟨1, _⟩ => show win0_1.index t (1 : Fin 2) * 512 + 1 * e.val = e.val; omega)
  rw [hemb]
  refine (congrFun (hostWq m c) (ix2 d e)).trans ?_
  exact transpose_ix2_apply _ _ d e

/-- The stored key weights at (d, e): the argument's (e, d). -/
theorem wk_at (c : Dev nD) (t : Fin cfg0.N) (d e : Fin 512) :
    iblk m c 3 t (ix2 d e) = (m ((c : Thread nD τ).loc main_arg3)) (ix2 e d) := by
  obtain ⟨-, -, -, -, -, -, q0, q1, k0, k1, v0, v1, -⟩ := idx_facts t
  show V m c main_v3 (((cfg0.win 3).blk t).view.emb (ix2 d e)) = _
  have hemb : ((cfg0.win 3).blk t).view.emb (ix2 d e) = ix2 d e := funext fun a => Fin.ext (by
    match a with
    | ⟨0, _⟩ => show win0_3.index t (0 : Fin 2) * 512 + 1 * d.val = d.val; omega
    | ⟨1, _⟩ => show win0_3.index t (1 : Fin 2) * 512 + 1 * e.val = e.val; omega)
  rw [hemb]
  refine (congrFun (hostWk m c) (ix2 d e)).trans ?_
  exact transpose_ix2_apply _ _ d e

/-- The stored value weights at (d, e): the argument's (e, d). -/
theorem wv_at (c : Dev nD) (t : Fin cfg0.N) (d e : Fin 512) :
    iblk m c 5 t (ix2 d e) = (m ((c : Thread nD τ).loc main_arg5)) (ix2 e d) := by
  obtain ⟨-, -, -, -, -, -, q0, q1, k0, k1, v0, v1, -⟩ := idx_facts t
  show V m c main_v5 (((cfg0.win 5).blk t).view.emb (ix2 d e)) = _
  have hemb : ((cfg0.win 5).blk t).view.emb (ix2 d e) = ix2 d e := funext fun a => Fin.ext (by
    match a with
    | ⟨0, _⟩ => show win0_5.index t (0 : Fin 2) * 512 + 1 * d.val = d.val; omega
    | ⟨1, _⟩ => show win0_5.index t (1 : Fin 2) * 512 + 1 * e.val = e.val; omega)
  rw [hemb]
  refine (congrFun (hostWv m c) (ix2 d e)).trans ?_
  exact transpose_ix2_apply _ _ d e

/-- The query bias block is the whole vector. -/
theorem bq_at (c : Dev nD) (t : Fin cfg0.N) (e : Fin 512) :
    iblk m c 2 t (ix1 e) = (m ((c : Thread nD τ).loc main_arg2)) (ix1 e) := by
  obtain ⟨-, -, -, -, -, -, -, -, -, -, -, -, c2, c4, c6⟩ := idx_facts t
  show V m c main_arg2 (((cfg0.win 2).blk t).view.emb (ix1 e)) = _
  rw [V_main_arg2]
  refine congrArg _ (funext fun a => Fin.ext ?_)
  match a with
  | ⟨0, _⟩ => show win0_2.index t (0 : Fin 1) * 512 + 1 * e.val = e.val; omega

/-- The key bias block is the whole vector. -/
theorem bk_at (c : Dev nD) (t : Fin cfg0.N) (e : Fin 512) :
    iblk m c 4 t (ix1 e) = (m ((c : Thread nD τ).loc main_arg4)) (ix1 e) := by
  obtain ⟨-, -, -, -, -, -, -, -, -, -, -, -, c2, c4, c6⟩ := idx_facts t
  show V m c main_arg4 (((cfg0.win 4).blk t).view.emb (ix1 e)) = _
  rw [V_main_arg4]
  refine congrArg _ (funext fun a => Fin.ext ?_)
  match a with
  | ⟨0, _⟩ => show win0_4.index t (0 : Fin 1) * 512 + 1 * e.val = e.val; omega

/-- The value bias block is the whole vector. -/
theorem bv_at (c : Dev nD) (t : Fin cfg0.N) (e : Fin 512) :
    iblk m c 6 t (ix1 e) = (m ((c : Thread nD τ).loc main_arg6)) (ix1 e) := by
  obtain ⟨-, -, -, -, -, -, -, -, -, -, -, -, c2, c4, c6⟩ := idx_facts t
  show V m c main_arg6 (((cfg0.win 6).blk t).view.emb (ix1 e)) = _
  rw [V_main_arg6]
  refine congrArg _ (funext fun a => Fin.ext ?_)
  match a with
  | ⟨0, _⟩ => show win0_6.index t (0 : Fin 1) * 512 + 1 * e.val = e.val; omega

/-! ## One point, over plain arrays -/

/-- What the body stores from blocks that ARE batch entry b of x, the transposed weight matrices and the bias vectors,
    at a block index y, is G at the array index with leading coordinate b and y's other two coordinates. -/
theorem point_eq (x0 : FVec Ideal S1x512x512 .f32) (x1 x3 x5 : FVec Ideal S512x512 .bf16) (x2 x4 x6 : FVec Ideal S512 .f32)
    (X : S128x512x512.Idx → EReal) (Wq Wk Wv : S512x512.Idx → EReal) (bq bk bv : S512.Idx → EReal) (b : Fin 128)
    (h0 : ∀ s d : Fin 512, x0 (ix3 (0 : Fin 1) s d) = X (ix3 b s d))
    (h1 : ∀ d e : Fin 512, x1 (ix2 d e) = Wq (ix2 e d)) (h3 : ∀ d e : Fin 512, x3 (ix2 d e) = Wk (ix2 e d))
    (h5 : ∀ d e : Fin 512, x5 (ix2 d e) = Wv (ix2 e d))
    (h2 : ∀ e : Fin 512, x2 (ix1 e) = bq (ix1 e)) (h4 : ∀ e : Fin 512, x4 (ix1 e) = bk (ix1 e)) (h6 : ∀ e : Fin 512, x6 (ix1 e) = bv (ix1 e))
    (y : S1x512x512.Idx) (i : S128x512x512.Idx)
    (hi0 : (i 0).val = b.val) (hi1 : (i 1).val = (y 1).val) (hi2 : (i 2).val = (y 2).val) :
    k0_pay1 (F := Ideal) (k0_pay3 x0 x5 x6) (k0_pay4 x0 x1 x3 x2 x4) (k0_pay5 x0 x1 x3 x2 x4) y = G X Wq bq Wk bk Wv bv i := by
  obtain ⟨u, s, d, rfl⟩ : ∃ (u : Fin 1) (s d : Fin 512), y = ix3 u s d := ⟨y 0, y 1, y 2, eq_ix3 y⟩
  have hi : i = ix3 b s d := funext fun a => Fin.ext (by
    match a with
    | ⟨0, _⟩ => exact hi0
    | ⟨1, _⟩ => exact hi1
    | ⟨2, _⟩ => exact hi2)
  have e2 : x2 = bq := funext fun j => by rw [eq_ix1 j]; exact h2 (j 0)
  have e4 : x4 = bk := funext fun j => by rw [eq_ix1 j]; exact h4 (j 0)
  have e6 : x6 = bv := funext fun j => by rw [eq_ix1 j]; exact h6 (j 0)
  refine (Body.stored_at x0 x1 x3 x5 x2 x4 x6 u s d).trans ?_
  rw [hi, linBlock_eq_linArr x0 x1 X Wq x2 b h0 h1, linBlock_eq_linArr x0 x3 X Wk x4 b h0 h3,
    linBlock_eq_linArr x0 x5 X Wv x6 b h0 h5, e2, e4, e6]
  rfl

/-! ## What a point writes back, the cover, and the array after the run -/

/-- What point t writes back is block t of G of the arguments. -/
theorem flushed7_eq (c : Dev nD) (t : Fin cfg0.N) :
    (dats m 0 c).flushed 7 t = ((cfg0.win 7).blk t).view.read (Elt Ideal) (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  rw [Value.flushed7]
  unfold out0_7
  rw [View.canon_unit_zero hz3]
  simp only [View.ld_unit_zero (S := S1x512x512) hz3, View.ld_unit_zero (S := S512x512) hz2, View.ld_unit_zero (S := S512) hz1]
  obtain ⟨o0, o1, o2, -⟩ := idx_facts t
  have ht : t.val < 128 := lt_of_lt_of_eq t.isLt N_0
  funext y
  show k0_pay1 (F := Ideal) (k0_pay3 (iblk m c 0 t) (iblk m c 5 t) (iblk m c 6 t))
      (k0_pay4 (iblk m c 0 t) (iblk m c 1 t) (iblk m c 3 t) (iblk m c 2 t) (iblk m c 4 t))
      (k0_pay5 (iblk m c 0 t) (iblk m c 1 t) (iblk m c 3 t) (iblk m c 2 t) (iblk m c 4 t)) y
    = (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (((cfg0.win 7).blk t).view.emb y)
  refine point_eq (iblk m c 0 t) (iblk m c 1 t) (iblk m c 3 t) (iblk m c 5 t) (iblk m c 2 t) (iblk m c 4 t) (iblk m c 6 t)
    (m ((c : Thread nD τ).loc main_arg0)) (m ((c : Thread nD τ).loc main_arg1)) (m ((c : Thread nD τ).loc main_arg3)) (m ((c : Thread nD τ).loc main_arg5)) (m ((c : Thread nD τ).loc main_arg2)) (m ((c : Thread nD τ).loc main_arg4)) (m ((c : Thread nD τ).loc main_arg6)) ⟨t.val, ht⟩
    (xblk_at m c t ⟨t.val, ht⟩ rfl) (wq_at m c t) (wk_at m c t) (wv_at m c t) (bq_at m c t) (bk_at m c t) (bv_at m c t)
    y (((cfg0.win 7).blk t).view.emb y) ?_ ?_ ?_
  · show win0_7.index t (0 : Fin 3) * 1 + 1 * (y 0).val = t.val
    have hy0 : (y 0).val < 1 := (y 0).isLt
    omega
  · show win0_7.index t (1 : Fin 3) * 512 + 1 * (y 1).val = (y 1).val
    omega
  · show win0_7.index t (2 : Fin 3) * 512 + 1 * (y 2).val = (y 2).val
    omega

/-- An index of the array is in point t's block iff each coordinate is in the block's range on its axis. -/
theorem mem_blk7 (t : Fin cfg0.N) (i : S128x512x512.Idx) :
    i ∈ ((cfg0.win 7).blk t).view.set ↔ ∀ a : Fin 3, win0_7.index t a * S1x512x512.size a ≤ (i a).val ∧ (i a).val < win0_7.index t a * S1x512x512.size a + S1x512x512.size a := by
  show i ∈ ((View.whole main_v6).slice (win0_7.rect t)).set ↔ _
  rw [View.set_slice_whole, Rect.mem_set_unit]
  exact Iff.rfl

/-- Every index of the result array is in the block of the point numbered by its batch coordinate. -/
theorem cover7 (i : S128x512x512.Idx) : ∃ t : Fin cfg0.N, (cfg0.win 7).flush t = true ∧ i ∈ ((cfg0.win 7).blk t).view.set := by
  have hi0 : (i 0).val < 128 := (i 0).isLt
  have hi1 : (i 1).val < 512 := (i 1).isLt
  have hi2 : (i 2).val < 512 := (i 2).isLt
  let t : Fin cfg0.N := ⟨(i 0).val, lt_of_lt_of_eq hi0 N_0.symm⟩
  obtain ⟨o0, o1, o2, -⟩ := idx_facts t
  have o0' : win0_7.index t (0 : Fin 3) = (i 0).val := o0
  refine ⟨t, flush0_7 t, ?_⟩
  rw [mem_blk7]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 512 ≤ (i 1).val ∧ (i 1).val < win0_7.index t (1 : Fin 3) * 512 + 512; omega
  | ⟨2, _⟩ => show win0_7.index t (2 : Fin 3) * 512 ≤ (i 2).val ∧ (i 2).val < win0_7.index t (2 : Fin 3) * 512 + 512; omega

/-- The result array after the run is G of the arguments. -/
theorem final7 (c : Dev nD) : (dats m 0 c).arrAt 7 cfg0.N = (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :=
  (dats m 0 c).arrAt_eq_of_cover 7 (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (fun t _ => flushed7_eq m c t) cover7

/-- The kernel's run: every weakly fair execution terminates with the result array at G of the arguments and the
    arguments unchanged. -/
theorem run : θ_run defs (onTc (τ := τ) (main (F := Ideal))) ⟨m, fun _ => 0, ρ⟩ fun r => ∀ c : Dev nD,
      r.2.mem ((c : Thread nD τ).loc main_v6) = (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final7 m c), (h c).2⟩) (Value.run_blocks m ρ)

end Cert.KernelIdeal.AttnValue

end
-- ==== Proof.LibLastAxisReduce.lean ====
/-
  A reduction of an n0 x n1 x k array along its last axis, read at a pair of leading coordinates.

  The reduced index (b, r) with the inner coordinate j put back on the last axis is the array index (b, r, j); so the
  host's maximum over that axis, at (b, r), is the fold of max over j of the entries (b, r, j), started from the
  reduction's initial value. This is the three-axis companion of the row reduction of a matrix.
-/
import Idealize.ShloMosaic.PureOps.Ideal.Laws
import Idealize.ShloMosaic.PureOps.Reduce
import Idealize.ShloMosaic.Lib.ValueIdx

noncomputable section

open scoped BigOperators

namespace Idealize.ShloMosaic.ValueIdx

open Idealize.ShloMosaic

/-- The reduced index (b, r) with the coordinate j put back on the last axis is (b, r, j). -/
theorem lift_last {n0 n1 k : ℕ} (h : (⟨3, ![n0, n1, k]⟩ : Shape).Reduces [2] (⟨2, ![n0, n1]⟩ : Shape)) (b : Fin n0) (r : Fin n1)
    (j : Fin ((⟨3, ![n0, n1, k]⟩ : Shape).size 2)) : h.lift (ix2 b r) j = ix3 b r (⟨j.val, j.isLt⟩ : Fin k) := by
  funext c; apply Fin.ext
  fin_cases c <;> rfl

/-- The host's maximum over the last axis, at (b, r): the fold of max over the entries (b, r, j) from the initial value. -/
theorem hostReduce_max_last {n0 n1 k : ℕ} {φ : FTy} {u : Shape}
    (h' : (⟨3, ![n0, n1, k]⟩ : Shape).ReducesTo [2] (⟨2, ![n0, n1]⟩ : Shape))
    (h : (⟨3, ![n0, n1, k]⟩ : Shape).Reduces [2] (⟨2, ![n0, n1]⟩ : Shape)) (x : FVec Ideal (⟨3, ![n0, n1, k]⟩ : Shape) φ)
    (init : u.Idx → Ideal φ) (hu : 0 < u.numel) (b : Fin n0) (r : Fin n1) :
    Host.reduce FloatOps.maximumf x init h' hu (ix2 b r)
      = (Finset.univ : Finset (Fin k)).fold max (init (Shape.Idx.first hu) : EReal) (fun j => (x (ix3 b r j) : EReal)) :=
  (Host.reduce_eq_fold_single FloatOps.maximumf x init h' h hu (ix2 b r)).trans
    (congrArg (fun f => Finset.fold max (init (Shape.Idx.first hu) : EReal) f (Finset.univ : Finset (Fin k)))
      (funext fun j => congrArg x (lift_last h b r j)))

end Idealize.ShloMosaic.ValueIdx

end
-- ==== Proof.RefValue.lean ====
/-
  The reference, read at an index: its last stage is the whole-array function G.

  The reference computes all 128 batch entries at once, so every stage is a three-axis array indexed
  (batch, row, column). Stage by stage, at coordinates:

  * a linear layer contracts the last axis of x with the SECOND axis of the weight matrix and adds the bias along the
    last axis — the whole-array spelling of the layer;
  * the query and key layers are transposed in their last two axes and multiplied batch by batch, so the energy at
    (b, i, j) sums q (p, i) * k (j, p) over positions p;
  * the softmax runs along the last axis: the maximum is a fold of max from the reduction's initial value, compared once
    more with that value; the sum starts from the zero word, which is the real number zero;
  * the weights are multiplied, batch by batch, with the transposed value layer, and the product is transposed back.
-/
import proofs.«133101_j49409303773947_1_alg».proof.Proof.Gen.ReferenceIdeal.Read
import proofs.«133101_j49409303773947_1_alg».proof.Proof.AttnSpec
import proofs.«133101_j49409303773947_1_alg».proof.Proof.LibLastAxisReduce
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx Cert.Attn

/-- The three kinds of argument array at the extended reals. -/
abbrev Arr : Type := (⟨S128x512x512, .f32⟩ : BufTy).Contents (Elt Ideal)
abbrev Mat : Type := (⟨S512x512, .f32⟩ : BufTy).Contents (Elt Ideal)
abbrev Vc : Type := (⟨S512, .f32⟩ : BufTy).Contents (Elt Ideal)

/-! ## Index equations: the generated index maps at coordinates -/

theorem lidx_v0 (b : Fin 128) (s e k : Fin 512) : lidx_main_v0 (ix3 b s e) k = ix3 b s k :=
  funext fun a => Fin.ext (by match a with | ⟨0, _⟩ => rfl | ⟨1, _⟩ => rfl | ⟨2, _⟩ => rfl)
theorem ridx_v0 (b : Fin 128) (s e k : Fin 512) : ridx_main_v0 (ix3 b s e) k = ix2 e k :=
  funext fun a => Fin.ext (by match a with | ⟨0, _⟩ => rfl | ⟨1, _⟩ => rfl)
theorem idx_bias_v2 (b : Fin 128) (s e : Fin 512) : idx_main_v1 (idx_main_v2 (ix3 b s e)) = ix1 e :=
  funext fun a => Fin.ext (by match a with | ⟨0, _⟩ => rfl)
theorem lidx_v4 (b : Fin 128) (s e k : Fin 512) : lidx_main_v4 (ix3 b s e) k = ix3 b s k :=
  funext fun a => Fin.ext (by match a with | ⟨0, _⟩ => rfl | ⟨1, _⟩ => rfl | ⟨2, _⟩ => rfl)
theorem ridx_v4 (b : Fin 128) (s e k : Fin 512) : ridx_main_v4 (ix3 b s e) k = ix2 e k :=
  funext fun a => Fin.ext (by match a with | ⟨0, _⟩ => rfl | ⟨1, _⟩ => rfl)
theorem idx_bias_v6 (b : Fin 128) (s e : Fin 512) : idx_main_v5 (idx_main_v6 (ix3 b s e)) = ix1 e :=
  funext fun a => Fin.ext (by match a with | ⟨0, _⟩ => rfl)
theorem lidx_v8 (b : Fin 128) (s e k : Fin 512) : lidx_main_v8 (ix3 b s e) k = ix3 b s k :=
  funext fun a => Fin.ext (by match a with | ⟨0, _⟩ => rfl | ⟨1, _⟩ => rfl | ⟨2, _⟩ => rfl)
theorem ridx_v8 (b : Fin 128) (s e k : Fin 512) : ridx_main_v8 (ix3 b s e) k = ix2 e k :=
  funext fun a => Fin.ext (by match a with | ⟨0, _⟩ => rfl | ⟨1, _⟩ => rfl)
theorem idx_bias_v10 (b : Fin 128) (s e : Fin 512) : idx_main_v9 (idx_main_v10 (ix3 b s e)) = ix1 e :=
  funext fun a => Fin.ext (by match a with | ⟨0, _⟩ => rfl)
theorem idx_swap_v12 (b : Fin 128) (i j : Fin 512) : idx_main_v12 (ix3 b i j) = ix3 b j i :=
  funext fun a => Fin.ext (by match a with | ⟨0, _⟩ => rfl | ⟨1, _⟩ => rfl | ⟨2, _⟩ => rfl)
theorem idx_swap_v13 (b : Fin 128) (i j : Fin 512) : idx_main_v13 (ix3 b i j) = ix3 b j i :=
  funext fun a => Fin.ext (by match a with | ⟨0, _⟩ => rfl | ⟨1, _⟩ => rfl | ⟨2, _⟩ => rfl)
theorem idx_swap_v26 (b : Fin 128) (i j : Fin 512) : idx_main_v26 (ix3 b i j) = ix3 b j i :=
  funext fun a => Fin.ext (by match a with | ⟨0, _⟩ => rfl | ⟨1, _⟩ => rfl | ⟨2, _⟩ => rfl)
theorem idx_swap_v28 (b : Fin 128) (i j : Fin 512) : idx_main_v28 (ix3 b i j) = ix3 b j i :=
  funext fun a => Fin.ext (by match a with | ⟨0, _⟩ => rfl | ⟨1, _⟩ => rfl | ⟨2, _⟩ => rfl)
theorem lidx_v14 (b : Fin 128) (i j k : Fin 512) : lidx_main_v14 (ix3 b i j) k = ix3 b i k :=
  funext fun a => Fin.ext (by match a with | ⟨0, _⟩ => rfl | ⟨1, _⟩ => rfl | ⟨2, _⟩ => rfl)
theorem ridx_v14 (b : Fin 128) (i j k : Fin 512) : ridx_main_v14 (ix3 b i j) k = ix3 b k j :=
  funext fun a => Fin.ext (by match a with | ⟨0, _⟩ => rfl | ⟨1, _⟩ => rfl | ⟨2, _⟩ => rfl)
theorem lidx_v27 (b : Fin 128) (i j k : Fin 512) : lidx_main_v27 (ix3 b i j) k = ix3 b i k :=
  funext fun a => Fin.ext (by match a with | ⟨0, _⟩ => rfl | ⟨1, _⟩ => rfl | ⟨2, _⟩ => rfl)
theorem ridx_v27 (b : Fin 128) (i j k : Fin 512) : ridx_main_v27 (ix3 b i j) k = ix3 b k j :=
  funext fun a => Fin.ext (by match a with | ⟨0, _⟩ => rfl | ⟨1, _⟩ => rfl | ⟨2, _⟩ => rfl)
theorem idx_keep_v19 (b : Fin 128) (i j : Fin 512) : idx_main_v18 (idx_main_v19 (ix3 b i j)) = ix2 b i :=
  funext fun a => Fin.ext (by match a with | ⟨0, _⟩ => rfl | ⟨1, _⟩ => rfl)
theorem idx_keep_v24 (b : Fin 128) (i j : Fin 512) : idx_main_v23 (idx_main_v24 (ix3 b i j)) = ix2 b i :=
  funext fun a => Fin.ext (by match a with | ⟨0, _⟩ => rfl | ⟨1, _⟩ => rfl)
theorem idx_row_v22 (b : Fin 128) (i k : Fin 512) : idx_main_v22 (ix2 b i) k = ix3 b i k :=
  funext fun a => Fin.ext (by match a with | ⟨0, _⟩ => rfl | ⟨1, _⟩ => rfl | ⟨2, _⟩ => rfl)

/-! ## The three linear layers -/

/-- The query layer at (b, s, e). -/
theorem query_at (x : Arr) (Wq : Mat) (bq : Vc) (b : Fin 128) (s e : Fin 512) :
    val_main_v3 (F := Ideal) x Wq bq (ix3 b s e) = linArr x Wq bq b s e := by
  rw [val_main_v3_apply, val_main_v0_apply, val_main_v2_apply, val_main_v1_apply]
  simp only [lidx_v0, ridx_v0, idx_bias_v2]
  rfl

/-- The key layer at (b, s, e). -/
theorem key_at (x : Arr) (Wk : Mat) (bk : Vc) (b : Fin 128) (s e : Fin 512) :
    val_main_v7 (F := Ideal) x Wk bk (ix3 b s e) = linArr x Wk bk b s e := by
  rw [val_main_v7_apply, val_main_v4_apply, val_main_v6_apply, val_main_v5_apply]
  simp only [lidx_v4, ridx_v4, idx_bias_v6]
  rfl

/-- The value layer at (b, s, e). -/
theorem value_at (x : Arr) (Wv : Mat) (bv : Vc) (b : Fin 128) (s e : Fin 512) :
    val_main_v11 (F := Ideal) x Wv bv (ix3 b s e) = linArr x Wv bv b s e := by
  rw [val_main_v11_apply, val_main_v8_apply, val_main_v10_apply, val_main_v9_apply]
  simp only [lidx_v8, ridx_v8, idx_bias_v10]
  rfl

/-! ## The energy and its softmax -/

/-- The energy at (b, i, j): the two layers transposed in their last two axes and multiplied batch by batch. -/
theorem energy_at (x : Arr) (Wq : Mat) (bq : Vc) (Wk : Mat) (bk : Vc) (b : Fin 128) (i j : Fin 512) :
    val_main_v14 (F := Ideal) x Wq bq Wk bk (ix3 b i j) = energy (linArr x Wq bq b) (linArr x Wk bk b) i j := by
  rw [val_main_v14_apply]
  unfold energy
  refine Finset.sum_congr rfl fun p _ => ?_
  rw [lidx_v14, ridx_v14, val_main_v12_apply, val_main_v13_apply, idx_swap_v12, idx_swap_v13, query_at, key_at]

/-- The row maximum at (b, i): the host's fold of max along the last axis from the initial value, compared with it once more. -/
theorem rowMax_at (x : Arr) (Wq : Mat) (bq : Vc) (Wk : Mat) (bk : Vc) (b : Fin 128) (i : Fin 512) :
    val_main_v17 (F := Ideal) x Wq bq Wk bk (ix2 b i) = rowMax (energy (linArr x Wq bq b) (linArr x Wk bk b)) i := by
  rw [val_main_v17_apply]
  unfold rowMax
  refine congrArg₂ max rfl ?_
  unfold val_main_v15
  refine (hostReduce_max_last reducesTo_S128x512x512_S128x512_d2 (by decide) _ _ h_S_ b i).trans ?_
  exact congrArg (fun f => Finset.fold max floorVal f (Finset.univ : Finset (Fin 512)))
    (funext fun l => energy_at x Wq bq Wk bk b i l)

/-- The shifted exponential at (b, i, j). -/
theorem shifted_at (x : Arr) (Wq : Mat) (bq : Vc) (Wk : Mat) (bk : Vc) (b : Fin 128) (i j : Fin 512) :
    val_main_v21 (F := Ideal) x Wq bq Wk bk (ix3 b i j) = shifted (energy (linArr x Wq bq b) (linArr x Wk bk b)) i j := by
  rw [val_main_v21_apply, val_main_v20_apply, val_main_v19_apply, val_main_v18_apply, idx_keep_v19, energy_at, rowMax_at]
  rfl

/-- The row sum at (b, i, j), any j: the host's sum along the last axis from the zero word, kept as a column and broadcast. -/
theorem rowSum_at (x : Arr) (Wq : Mat) (bq : Vc) (Wk : Mat) (bk : Vc) (b : Fin 128) (i j : Fin 512) :
    val_main_v24 (F := Ideal) x Wq bq Wk bk (ix3 b i j) = rowSum (energy (linArr x Wq bq b) (linArr x Wk bk b)) i := by
  rw [val_main_v24_apply, val_main_v23_apply, idx_keep_v24, val_main_v22_apply, val_main_cst_1_apply]
  unfold rowSum
  rw [Ideal.ofBits_def, Ideal.ofBits_zero_f32, zero_add]
  exact Finset.sum_congr rfl fun l _ => by rw [idx_row_v22, shifted_at]

/-- The softmax weight at (b, i, j). -/
theorem weight_at (x : Arr) (Wq : Mat) (bq : Vc) (Wk : Mat) (bk : Vc) (b : Fin 128) (i j : Fin 512) :
    val_main_v25 (F := Ideal) x Wq bq Wk bk (ix3 b i j) = weight (energy (linArr x Wq bq b) (linArr x Wk bk b)) i j := by
  rw [val_main_v25_apply, shifted_at, rowSum_at]
  rfl

/-! ## The context, and the result -/

/-- The context at (b, i, j): the weights against the transposed value layer, batch by batch. -/
theorem context_at (x : Arr) (Wq : Mat) (bq : Vc) (Wk : Mat) (bk : Vc) (Wv : Mat) (bv : Vc) (b : Fin 128) (i j : Fin 512) :
    val_main_v27 (F := Ideal) x Wq bq Wk bk Wv bv (ix3 b i j)
      = context (linArr x Wq bq b) (linArr x Wk bk b) (linArr x Wv bv b) i j := by
  rw [val_main_v27_apply]
  unfold context
  refine Finset.sum_congr rfl fun p _ => ?_
  rw [lidx_v27, ridx_v27, weight_at, val_main_v26_apply, idx_swap_v26, value_at]

/-- The reference's last stage is the whole-array function. -/
theorem ref_eq (x : Arr) (Wq : Mat) (bq : Vc) (Wk : Mat) (bk : Vc) (Wv : Mat) (bv : Vc) :
    val_main_v28 (F := Ideal) x Wq bq Wk bk Wv bv = G x Wq bq Wk bk Wv bv := by
  funext i
  obtain ⟨b, s, d, rfl⟩ : ∃ (b : Fin 128) (s d : Fin 512), i = ix3 b s d := ⟨i 0, i 1, i 2, eq_ix3 i⟩
  rw [val_main_v28_apply, idx_swap_v28, context_at]
  rfl

end Cert.ReferenceIdeal.RefValue

end
-- ==== Proof.lean ====
/-
  A single-head attention block, unscaled, over 128 batch entries of 512 positions by 512 features: a Pallas kernel
  with one grid point per batch entry against a plain jnp reference that treats all batch entries at once. Both are
  read at the extended reals, where a change of float format is the identity and every operation is exact.

  Both programs compute, at (batch b, position s, feature d),

      sum over p of  weight_b (d, p) * V_b (s, p),

  where Q_b, K_b, V_b are the three linear layers x_b W^T + bias of batch entry b, the energy is
  energy_b (i, j) = sum over positions p of Q_b (p, i) * K_b (j, p) — features against features, which needs as many
  positions as features —, and weight_b is the row softmax of the energy: exp (energy - row maximum) over its row sum.

  The two texts differ only in arrangement. The kernel receives the weight matrices already transposed by the host and
  multiplies plain products on the matrix unit, transposing Q, K, V and the context in its registers; the reference
  contracts x against the second axis of each weight matrix, transposes three-axis arrays and multiplies batch by batch.
  Every product is the same finite sum with its factors in the same order, the maximum is the same fold of max started
  from the same word and compared with it once more, the exponential and the quotient are the same functions, and the
  row sum differs by a leading zero. So no algebraic law is needed beyond 0 + a = a, and the finiteness of the inputs is
  never used: the two results are one function G of the seven arguments (AttnSpec), which the kernel's result array
  holds after its run (KernelBody, KernelValue) and the reference's last stage equals (RefValue).

  The ideal pass rewrote nothing, so the idealized kernel is the kernel's own text and 'preserves' has no conjunct.
-/
import proofs.«133101_j49409303773947_1_alg».proof.Defs
import proofs.«133101_j49409303773947_1_alg».proof.Proof.Gen.Kernel
import proofs.«133101_j49409303773947_1_alg».proof.Proof.Gen.Kernel.Skeleton
import proofs.«133101_j49409303773947_1_alg».proof.Proof.Gen.Kernel.Launch
import proofs.«133101_j49409303773947_1_alg».proof.Proof.Gen.Kernel.Points
import proofs.«133101_j49409303773947_1_alg».proof.Proof.Gen.Kernel.Frame
import proofs.«133101_j49409303773947_1_alg».proof.Proof.Gen.KernelIdeal
import proofs.«133101_j49409303773947_1_alg».proof.Proof.Gen.KernelIdeal.Skeleton
import proofs.«133101_j49409303773947_1_alg».proof.Proof.Gen.KernelIdeal.Launch
import proofs.«133101_j49409303773947_1_alg».proof.Proof.Gen.KernelIdeal.Points
import proofs.«133101_j49409303773947_1_alg».proof.Proof.Gen.KernelIdeal.Frame
import proofs.«133101_j49409303773947_1_alg».proof.Proof.Gen.ReferenceIdeal
import proofs.«133101_j49409303773947_1_alg».proof.Proof.Gen.Pre_finite_inputs
import proofs.«133101_j49409303773947_1_alg».proof.Proof.Gen.KernelIdeal.Value
import proofs.«133101_j49409303773947_1_alg».proof.Proof.Gen.ReferenceIdeal.Run
import proofs.«133101_j49409303773947_1_alg».proof.Proof.Gen.ReferenceIdeal.Read
import proofs.«133101_j49409303773947_1_alg».proof.Proof.KernelValue
import proofs.«133101_j49409303773947_1_alg».proof.Proof.RefValue
import Idealize.ShloMosaic.Adequacy
import Idealize.ShloMosaic.Init

noncomputable section

namespace Cert.Proof

open Idealize.ShloMosaic Idealize.SL.Sem Idealize.ShloMosaic.TcCoe

/-- The kernel as printed runs to the end without a fault and leaves its arguments as they were. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the kernel and its idealization. -/
theorem preserves : Cert.preserves_Kernel_KernelIdeal := trivial

/-- From memories that agree on the seven arguments, the kernel's result array and the reference's result both end
    at G of those arguments. -/
theorem algebraic : Cert.algebraic_KernelIdeal_ReferenceIdeal := by
  intro m ρ m' ρ' _ hagree
  refine ⟨fun c => Cert.Attn.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), Cert.KernelIdeal.AttnValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.ReferenceIdeal.RefValue.ref_eq,
    (hagree c).1, (hagree c).2.1, (hagree c).2.2.1, (hagree c).2.2.2.1, (hagree c).2.2.2.2.1,
    (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
